-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v12)) (v1 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v12) = v0 c
          ∧ r.2.mem ((c.tc : Thread Cert.KernelIdeal.nD Cert.KernelIdeal.τ).loc Cert.KernelIdeal.main_v0) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v17) = v0 c
          ∧ r.2.mem ((c.tc : Thread Cert.ReferenceIdeal.nD Cert.ReferenceIdeal.τ).loc Cert.ReferenceIdeal.main_v0) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384 : Shape := ⟨1, ![16384]⟩
abbrev S_ : Shape := ⟨0, ![]⟩

class Facts : Prop where
  bcast_S_S16384 : S_.BroadcastsInDim S16384 (![] : Fin 0 → Fin S16384.rank)
  reducesTo_S16384_S_d0 : S16384.ReducesTo [0] S_
  h_S_ : 0 < S_.numel

variable [Facts]

def fn {F : FTy → Type} [FloatOps F] (main_arg0 : FVec F S16384 .f32) (main_arg1 : FVec F S16384 .f32) : IVec S_ 1 :=
  let main_v0 : FVec F S16384 .f32 := Host.absf main_arg0
  let main_cst : FVec F S_ .f32 := constant S_ .f32 0x7F800000#32
  let main_v1 : FVec F S16384 .f32 := broadcastInDim S16384 ![] bcast_S_S16384 main_cst
  let main_v2 : IVec S16384 1 := cmpf .olt main_v0 main_v1
  let main_c : IVec S_ 1 := constantI S_ 1 1#1
  let main_v3 : IVec S_ 1 := (fun x v => Host.reduce IntOp.andi x v reducesTo_S16384_S_d0 h_S_) main_v2 main_c
  let main_v4 : FVec F S16384 .f32 := Host.absf main_arg1
  let main_cst_0 : FVec F S_ .f32 := constant S_ .f32 0x7F800000#32
  let main_v5 : FVec F S16384 .f32 := broadcastInDim S16384 ![] bcast_S_S16384 main_cst_0
  let main_v6 : IVec S16384 1 := cmpf .olt main_v4 main_v5
  let main_c_1 : IVec S_ 1 := constantI S_ 1 1#1
  let main_v7 : IVec S_ 1 := (fun x v => Host.reduce IntOp.andi x v reducesTo_S16384_S_d0 h_S_) main_v6 main_c_1
  let main_v8 : IVec S_ 1 := andi main_v3 main_v7
  main_v8
-- ==== Kernel.lean ====
abbrev S16384 : Shape := ⟨1, ![16384]⟩
abbrev S_ : Shape := ⟨0, ![]⟩
abbrev S16384x1 : Shape := ⟨2, ![16384, 1]⟩
abbrev S1x16384 : Shape := ⟨2, ![1, 16384]⟩
abbrev S1024x1 : Shape := ⟨2, ![1024, 1]⟩
abbrev S1x1024 : Shape := ⟨2, ![1, 1024]⟩
abbrev S1024x1024 : Shape := ⟨2, ![1024, 1024]⟩
abbrev S1024 : Shape := ⟨1, ![1024]⟩

abbrev nBuf : Space → Nat
  | .hbm => 16
  | .vmem => 8
  | .smem => 0
  | _ => 0

abbrev bufTy : (tb : Table) → Fin (tcTables nBuf tb) → BufTy
  | .hbm, ⟨0, _⟩ => ⟨S16384, .f32⟩
  | .hbm, ⟨1, _⟩ => ⟨S16384, .f32⟩
  | .hbm, ⟨2, _⟩ => ⟨S16384, .f32⟩
  | .hbm, ⟨3, _⟩ => ⟨S_, .f32⟩
  | .hbm, ⟨4, _⟩ => ⟨S_, .f32⟩
  | .hbm, ⟨5, _⟩ => ⟨S16384, .f32⟩
  | .hbm, ⟨6, _⟩ => ⟨S16384, .f32⟩
  | .hbm, ⟨7, _⟩ => ⟨S16384, .f32⟩
  | .hbm, ⟨8, _⟩ => ⟨S16384, .f32⟩
  | .hbm, ⟨9, _⟩ => ⟨S16384, .f32⟩
  | .hbm, ⟨10, _⟩ => ⟨S16384x1, .f32⟩
  | .hbm, ⟨11, _⟩ => ⟨S1x16384, .f32⟩
  | .hbm, ⟨12, _⟩ => ⟨S16384x1, .f32⟩
  | .hbm, ⟨13, _⟩ => ⟨S1x16384, .f32⟩
  | .hbm, ⟨14, _⟩ => ⟨S16384x1, .f32⟩
  | .hbm, ⟨15, _⟩ => ⟨S16384, .f32⟩
  | .local _ .vmem, ⟨0, _⟩ => ⟨S1024x1, .f32⟩
  | .local _ .vmem, ⟨1, _⟩ => ⟨S1024x1, .f32⟩
  | .local _ .vmem, ⟨2, _⟩ => ⟨S1x16384, .f32⟩
  | .local _ .vmem, ⟨3, _⟩ => ⟨S1024x1, .f32⟩
  | .local _ .vmem, ⟨4, _⟩ => ⟨S1024x1, .f32⟩
  | .local _ .vmem, ⟨5, _⟩ => ⟨S1x16384, .f32⟩
  | .local _ .vmem, ⟨6, _⟩ => ⟨S1024x1, .f32⟩
  | .local _ .vmem, ⟨7, _⟩ => ⟨S1024x1, .f32⟩
  | _, _ => ⟨S16384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![16], ![false]⟩

@[reducible] def k0_t1_loop : Scf.Loop 32 :=
  let c0_i32 : BitVec 32 := 0#32
  let c16_i32 : BitVec 32 := 16#32
  let v5 : BitVec 32 := Scalar.addi c0_i32 c16_i32
  let c1_i32 : BitVec 32 := 1#32
  ⟨c0_i32, v5, c1_i32⟩
def k0_mult1 (k0_t1 : Fin k0_t1_loop.trips) : BitVec 32 :=
  let c0_i32 : BitVec 32 := 0#32
  let c1_i32 : BitVec 32 := 1#32
  let arg6 : BitVec 32 := Scf.iv c0_i32 c1_i32 k0_t1
  let c1024_i32 : BitVec 32 := 1024#32
  let v14 : BitVec 32 := Scalar.muli arg6 c1024_i32
  v14
def k0_off1 (k0_t1 : Fin k0_t1_loop.trips) : Fin 2 → Nat :=
  let c0_8 : Index := 0#32
  let c0_i32 : BitVec 32 := 0#32
  let c1_i32 : BitVec 32 := 1#32
  let arg6 : BitVec 32 := Scf.iv c0_i32 c1_i32 k0_t1
  let c1024_i32 : BitVec 32 := 1024#32
  let v14 : BitVec 32 := Scalar.muli arg6 c1024_i32
  let v15 : BitVec 32 := v14
  let v16 : Index := Scalar.indexCast v15
  ![0, v16.toNat]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x16384 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x16384 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1024x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  reducesTo_S16384_S_d0 : S16384.ReducesTo [0] S_
  h_S_ : 0 < S_.numel
  bcast_S_S16384 : S_.BroadcastsInDim S16384 (![] : Fin 0 → Fin S16384.rank)
  shapeCasts_S16384_S16384x1 : S16384.ShapeCasts S16384x1
  shapeCasts_S16384_S1x16384 : S16384.ShapeCasts S1x16384
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  h_S1x1024 : 0 < S1x1024.numel
  shapeCasts_S1x1024_S1x1024 : S1x1024.ShapeCasts S1x1024
  broadcasts_S1024x1_S1024x1024 : S1024x1.Broadcasts S1024x1024
  broadcasts_S1x1024_S1024x1024 : S1x1024.Broadcasts S1024x1024
  reduces_S1024x1024_S1024 : S1024x1024.Reduces [1] S1024
  shapeCasts_S1024_S1024x1 : S1024.ShapeCasts S1024x1
  shapeCasts_S16384x1_S16384 : S16384x1.ShapeCasts S16384
  hrank0 : 0 < grid0.rank
  k0_t1_ok : k0_t1_loop.OK
  k0_mult1_dvd : ∀ k0_t1 : Fin k0_t1_loop.trips, 1024 ∣ (k0_mult1 k0_t1).toNat
  k0_off1_inb : ∀ k0_t1 : Fin k0_t1_loop.trips, ∀ a, (k0_off1 k0_t1) a + S1x1024.size a ≤ S1x16384.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1.size a ≤ S16384x1.size a
  hwx0_0 : ∀ i : grid0.Coords, EltTy.bits .f32 = 32 ∨ (Rect.block (s := S16384x1) S1024x1.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x16384.size a ≤ S1x16384.size a
  hwx0_1 : ∀ i : grid0.Coords, EltTy.bits .f32 = 32 ∨ (Rect.block (s := S1x16384) S1x16384.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1.size a ≤ S16384x1.size a
  hwx0_2 : ∀ i : grid0.Coords, EltTy.bits .f32 = 32 ∨ (Rect.block (s := S16384x1) S1024x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x16384.size a ≤ S1x16384.size a
  hwx0_3 : ∀ i : grid0.Coords, EltTy.bits .f32 = 32 ∨ (Rect.block (s := S1x16384) S1x16384.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1024x1.size a ≤ S16384x1.size a
  hwx0_4 : ∀ i : grid0.Coords, EltTy.bits .f32 = 32 ∨ (Rect.block (s := S16384x1) S1024x1.size (cc0_transform_4 i) (hinb0_4 i)).WholeWords (EltTy.packing .f32)

variable [Facts₀]

abbrev win0_0 : Pipeline.Window sig grid0 :=
  Pipeline.Window.ofSpec (Memref.whole main_v7) S1024x1.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v8) S1x16384.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v9) S1024x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v10) S1x16384.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v11) S1024x1.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S16384 : Shape := ⟨1, ![16384]⟩
abbrev S16384x1 : Shape := ⟨2, ![16384, 1]⟩
abbrev S1x16384 : Shape := ⟨2, ![1, 16384]⟩
abbrev S16384x16384 : Shape := ⟨2, ![16384, 16384]⟩
abbrev S_ : Shape := ⟨0, ![]⟩

abbrev nBuf : Space → Nat
  | .hbm => 24
  | .vmem => 0
  | .smem => 0
  | _ => 0

abbrev bufTy : (tb : Table) → Fin (tcTables nBuf tb) → BufTy
  | .hbm, ⟨0, _⟩ => ⟨S16384, .f32⟩
  | .hbm, ⟨1, _⟩ => ⟨S16384, .f32⟩
  | .hbm, ⟨2, _⟩ => ⟨S16384, .f32⟩
  | .hbm, ⟨3, _⟩ => ⟨S16384x1, .f32⟩
  | .hbm, ⟨4, _⟩ => ⟨S1x16384, .f32⟩
  | .hbm, ⟨5, _⟩ => ⟨S16384x16384, .f32⟩
  | .hbm, ⟨6, _⟩ => ⟨S16384x16384, .f32⟩
  | .hbm, ⟨7, _⟩ => ⟨S16384x16384, .i1⟩
  | .hbm, ⟨8, _⟩ => ⟨S1x16384, .f32⟩
  | .hbm, ⟨9, _⟩ => ⟨S16384x1, .f32⟩
  | .hbm, ⟨10, _⟩ => ⟨S16384x16384, .f32⟩
  | .hbm, ⟨11, _⟩ => ⟨S16384x16384, .f32⟩
  | .hbm, ⟨12, _⟩ => ⟨S16384x16384, .f32⟩
  | .hbm, ⟨13, _⟩ => ⟨S16384x16384, .f32⟩
  | .hbm, ⟨14, _⟩ => ⟨S_, .f32⟩
  | .hbm, ⟨15, _⟩ => ⟨S16384x16384, .f32⟩
  | .hbm, ⟨16, _⟩ => ⟨S16384x16384, .f32⟩
  | .hbm, ⟨17, _⟩ => ⟨S_, .f32⟩
  | .hbm, ⟨18, _⟩ => ⟨S16384, .f32⟩
  | .hbm, ⟨19, _⟩ => ⟨S_, .f32⟩
  | .hbm, ⟨20, _⟩ => ⟨S16384, .f32⟩
  | .hbm, ⟨21, _⟩ => ⟨S16384, .f32⟩
  | .hbm, ⟨22, _⟩ => ⟨S16384, .f32⟩
  | .hbm, ⟨23, _⟩ => ⟨S16384, .f32⟩
  | _, _ => ⟨S16384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_cst : Ref sig .tc := ⟨.hbm, 14, rfl⟩
abbrev main_call0_v0 : Ref sig .tc := ⟨.hbm, 15, rfl⟩
abbrev main_v12 : Ref sig .tc := ⟨.hbm, 16, rfl⟩
abbrev main_cst_0 : Ref sig .tc := ⟨.hbm, 17, rfl⟩
abbrev main_v13 : Ref sig .tc := ⟨.hbm, 18, rfl⟩
abbrev main_cst_1 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩

abbrev nD : Nat := 1
abbrev τ : Topo := Topo.v7x

variable {F : FTy → Type} [FloatOps F]

class Facts₀ : Prop where
  bcast_S16384_S16384x1_0 : S16384.BroadcastsInDim S16384x1 (![0] : Fin 1 → Fin S16384x1.rank)
  bcast_S16384_S1x16384_1 : S16384.BroadcastsInDim S1x16384 (![1] : Fin 1 → Fin S1x16384.rank)
  bcast_S16384x1_S16384x16384_0_1 : S16384x1.BroadcastsInDim S16384x16384 (![0, 1] : Fin 2 → Fin S16384x16384.rank)
  bcast_S1x16384_S16384x16384_0_1 : S1x16384.BroadcastsInDim S16384x16384 (![0, 1] : Fin 2 → Fin S16384x16384.rank)
  bcast_S_S16384x16384 : S_.BroadcastsInDim S16384x16384 (![] : Fin 0 → Fin S16384x16384.rank)
  reducesTo_S16384x16384_S16384_d1 : S16384x16384.ReducesTo [1] S16384
  h_S_ : 0 < S_.numel
  bcast_S_S16384 : S_.BroadcastsInDim S16384 (![] : Fin 0 → Fin S16384.rank)

variable [Facts₀]

class Facts : Prop extends Facts₀ where

variable [Facts]
-- ==== Proof.Body.lean ====
/-
  What one grid point's body leaves in its output block, before any arithmetic is read: the block is the last payload
  (product, small constant, logarithm, sign) of the point's first column block and of the value a counted loop carries
  out of its 16th trip; one trip's yield is the loop body's payload of the carried value and of the two 1024-wide row
  chunks the trip loads at column offset 1024·k. Stated for any float instance.
-/
import proofs.«170966_j68367289418254_2_alg».proof.Proof.Gen.KernelIdeal.Frame
import Idealize.ShloMosaic.Lib.WholeRead
import Idealize.ShloMosaic.Lib.Pipeline.Value

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.KernelIdeal Cert.KernelIdeal.Gen

variable {F : FTy → Type} [FloatOps F]

theorem hz : (![0, 0] : Fin 2 → Nat) = fun _ => 0 := funext fun a => by fin_cases a <;> rfl

/-- What the body leaves in the output block: the last payload of the first window's block and of the value the
    counted loop carries out of its last trip. -/
theorem out_eq (c : Dev nD) (i : grid0.Coords) (arg1 : Memref sig .tc .vmem S1024x1 .f32) (harg1 : arg1.IsWhole) (arg2 : Memref sig .tc .vmem S1x16384 .f32) (harg2 : arg2.IsWhole) (arg3 : Memref sig .tc .vmem S1024x1 .f32) (harg3 : arg3.IsWhole) (arg4 : Memref sig .tc .vmem S1x16384 .f32) (harg4 : arg4.IsWhole) (arg5 : Memref sig .tc .vmem S1024x1 .f32) (harg5 : arg5.IsWhole)
    (x0 : Vec F S1024x1 .f32) (x1 : Vec F S1x16384 .f32) (x2 : Vec F S1024x1 .f32) (x3 : Vec F S1x16384 .f32) :
    out0_A_4 c i arg1 harg1 arg2 harg2 arg3 harg3 arg4 harg4 arg5 harg5 x0 x1 x2 x3
      = k0_pay3 x0 (st_k0_t1 Variants.none c none i arg1 harg1 arg2 harg2 arg3 harg3 arg4 harg4 arg5 harg5 x2 (harg2.unread x1) (harg4.unread x3) k0_pay1 k0_t1_loop.trips) := by
  unfold out0_A_4
  rw [View.read_writes_eq_canon _ _ _ (cover0_A_4 c i arg1 harg1 arg2 harg2 arg3 harg3 arg4 harg4 arg5 harg5 x0 x1 x2 x3)]
  unfold kernelRun0_A
  dsimp only
  rw [View.canon_unit_zero hz]
  simp only [View.readAt_eq_ld, harg1.read_unread, harg3.read_unread, View.ld_unit_zero (S := S1024x1) hz]

/-- One trip's yield: the loop body's payload of the carried value and of the two row chunks the trip loads. -/
theorem trip_eq (𝒱 : Variants) (c : Dev nD) (bd : Option 𝒱.V) (i : grid0.Coords) (arg1 : Memref sig .tc .vmem S1024x1 .f32) (harg1 : arg1.IsWhole) (arg2 : Memref sig .tc .vmem S1x16384 .f32) (harg2 : arg2.IsWhole) (arg3 : Memref sig .tc .vmem S1024x1 .f32) (harg3 : arg3.IsWhole) (arg4 : Memref sig .tc .vmem S1x16384 .f32) (harg4 : arg4.IsWhole) (arg5 : Memref sig .tc .vmem S1024x1 .f32) (harg5 : arg5.IsWhole) (v2 : Vec F S1024x1 .f32)
    (X_arg2 : BufTy.Contents (Elt F) arg2.view.ty) (X_arg4 : BufTy.Contents (Elt F) arg4.view.ty) (k : Fin k0_t1_loop.trips) (acc : FVec F S1024x1 .f32) :
    tripR_k0_t1 (F := F) 𝒱 c bd i arg1 harg1 arg2 harg2 arg3 harg3 arg4 harg4 arg5 harg5 v2 X_arg2 X_arg4 k acc
      = k0_pay2 v2 acc
          (View.readAt (Elt F) arg4.view (Rect.unit (s := S1x16384) (k0_off1 k) S1x1024.size (k0_off1_inb k)).toLoadRect X_arg4)
          (View.readAt (Elt F) arg2.view (Rect.unit (s := S1x16384) (k0_off1 k) S1x1024.size (k0_off1_inb k)).toLoadRect X_arg2) := by
  unfold tripR_k0_t1 trip_k0_t1
  rfl

theorem trips_eq : k0_t1_loop.trips = 16 := by decide

end Cert.KernelIdeal.Body

end
-- ==== Proof.Spec.lean ====
/-
  The Plackett–Luce log-probability of each item under a Gumbel-perturbed ranking, as two arrangements of one sum.

  For scores `l` and perturbations `n` (16384 of each), item `i`'s value is
  `-log (∑ k, [l i + n i ≥ l k + n k] · exp (l k - l i) + ε)`: the mask keeps the items ranked at or below `i`.
  The second arrangement shifts every score by a common real `M` before exponentiating, factors
  `exp (l k - l i) = exp (-(l i - M)) · exp (l k - M)` out of the sum, and adds the 16384 terms as 16 consecutive
  chunks of 1024. Over real scores the two agree: `exp` turns the sum of the two shifted exponents into the
  product, a real factor distributes over a finite sum of reals, and a sum over 16 · 1024 consecutive positions is the
  sum over all 16384. Finiteness of the scores is what the factoring needs: on the extended reals an infinite
  `exp (-(l i - M))` times a vanishing sum is not the sum of the products.
-/
import Idealize.ShloMosaic.PureOps.Ideal
import Mathlib.Algebra.BigOperators.Fin
import Mathlib.Logic.Equiv.Fin.Basic

noncomputable section

namespace Cert.RankLogProb

open Idealize.ShloMosaic
open scoped BigOperators

/-- The small constant added inside the logarithm (the same f32 word in both programs; never evaluated). -/
def eps : EReal := Ideal.ofBits .f32 0x2EDBE6FF#32

/-- Item `i`'s log-probability, the sum taken over all items at once. -/
def logProb (l n : Fin 16384 → EReal) (i : Fin 16384) : EReal :=
  -(Ideal.log ((0 + ∑ k : Fin 16384, Scalar.select (Ideal.cmp .oge (l i + n i) (l k + n k)) (Ideal.exp (l k - l i)) 0) + eps))

/-- The coercion of a finite real sum is the sum of the coercions. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A masked real term is the coercion of the masked real. -/
theorem select_coe (c : BitVec 1) (a : ℝ) : Scalar.select c (a : EReal) 0 = ((if c = 1 then a else 0 : ℝ) : EReal) := by
  unfold Scalar.select
  split <;> simp

/-- Position `1024 s + k` is chunk `s`, offset `k`: the 16 × 1024 (chunk, offset) pairs are the 16384 positions. -/
def chunkEquiv : Fin 16 × Fin 1024 ≃ Fin 16384 where
  toFun p := ⟨1024 * p.1.val + p.2.val, by have := p.1.isLt; have := p.2.isLt; omega⟩
  invFun j := (⟨j.val / 1024, by have := j.isLt; omega⟩, ⟨j.val % 1024, by omega⟩)
  left_inv p := by
    have h1 := p.1.isLt; have h2 := p.2.isLt
    refine Prod.ext (Fin.ext ?_) (Fin.ext ?_)
    · show (1024 * p.1.val + p.2.val) / 1024 = p.1.val; omega
    · show (1024 * p.1.val + p.2.val) % 1024 = p.2.val; omega
  right_inv j := by
    refine Fin.ext ?_
    show 1024 * (j.val / 1024) + j.val % 1024 = j.val; omega

/-- Chunk `s` (positions `1024 s … 1024 s + 1023`) of the masked sum of a row `E`, the mask comparing `a` with the row `Gr`. -/
def chunk (a : EReal) (Gr E : Fin 16384 → EReal) (s : Fin 16) : EReal :=
  ∑ k : Fin 1024, Scalar.select (Ideal.cmp .oge a (Gr (chunkEquiv (s, k)))) (E (chunkEquiv (s, k))) 0

/-- Sixteen chunks of 1024 consecutive positions are all 16384 positions. -/
theorem sum_chunks (f : Fin 16384 → EReal) :
    ∑ s : Fin 16, ∑ k : Fin 1024, f (chunkEquiv (s, k)) = ∑ j : Fin 16384, f j :=
  (Fintype.sum_prod_type (fun p : Fin 16 × Fin 1024 => f (chunkEquiv p))).symm.trans (Equiv.sum_comp chunkEquiv f)

/-- One row of the chunked arrangement: the factor `a0` times the 16 chunks' total, then `ε`, `log`, and the sign. -/
def rowOut (a0 a2 : EReal) (E Gr : Fin 16384 → EReal) : EReal :=
  0 - Ideal.log (a0 * (∑ s : Fin 16, chunk a2 Gr E s) + eps)

/-- THE LAW: over real scores, the shifted, factored, chunked arrangement is the log-probability. -/
theorem rowOut_eq_logProb (l n : Fin 16384 → EReal) (L : Fin 16384 → ℝ) (hl : ∀ i, l i = (L i : EReal)) (M : ℝ) (R : Fin 16384) :
    rowOut (Ideal.exp (-(l R - (M : EReal)))) (l R + n R) (fun k => Ideal.exp (l k - (M : EReal))) (fun k => l k + n k)
      = logProb l n R := by
  have hsum : (∑ s : Fin 16, chunk (l R + n R) (fun k => l k + n k) (fun k => Ideal.exp (l k - (M : EReal))) s)
      = ∑ j : Fin 16384, Scalar.select (Ideal.cmp .oge (l R + n R) (l j + n j)) (Ideal.exp (l j - (M : EReal))) 0 :=
    sum_chunks (fun j => Scalar.select (Ideal.cmp .oge (l R + n R) (l j + n j)) (Ideal.exp (l j - (M : EReal))) 0)
  unfold rowOut logProb
  rw [hsum, zero_sub, zero_add]
  refine congrArg (fun x => -(Ideal.log (x + eps))) ?_
  have key : ∀ c : Fin 16384 → BitVec 1,
      Ideal.exp (-(l R - (M : EReal))) * ∑ j : Fin 16384, Scalar.select (c j) (Ideal.exp (l j - (M : EReal))) 0
        = ∑ j : Fin 16384, Scalar.select (c j) (Ideal.exp (l j - l R)) 0 := by
    intro c
    simp only [hl, ← EReal.coe_sub, ← EReal.coe_neg, Ideal.exp_coe, select_coe]
    refine ((congrArg (_ * ·) (coe_sum _ _).symm).trans (EReal.coe_mul _ _).symm).trans
      (Eq.trans (congrArg (fun x : ℝ => (x : EReal)) ?_) (coe_sum _ _))
    rw [Finset.mul_sum]
    refine Finset.sum_congr rfl fun k _ => ?_
    split
    · rw [← Real.exp_add]; congr 1; ring
    · rw [mul_zero]
  exact key _

end Cert.RankLogProb

end
-- ==== Proof.LibKeepdims.lean ====
/-
  Layout operations of a two-axis block read at coordinates: the casts between a block [1, 1, a, b] and its matrix
  [a, b], and the column forms a row reduction kept as a column needs — a vector [a] cast to a column [a, 1], and a
  column [a, 1] broadcast along b lanes. Each is the general read-at-an-index lemma of the operation with both indices
  written by coordinates, the coordinates' arithmetic done once here.
-/
import Idealize.ShloMosaic.Lib.Pipeline.Value
import Idealize.ShloMosaic.Lib.ValueIdx

namespace Cert.LibKeepdims

open Idealize.ShloMosaic Idealize.ShloMosaic.ValueIdx

variable {α : Type}

/-- A [1, 1, a, b] block cast to the matrix [a, b] reads, at (i, j), the block at (0, 0, i, j). -/
theorem shapeCast_11ab_ab_apply {a b : ℕ} (x : (⟨4, ![1, 1, a, b]⟩ : Shape).Idx → α)
    (h : (⟨4, ![1, 1, a, b]⟩ : Shape).ShapeCasts ⟨2, ![a, b]⟩) (i : Fin a) (j : Fin b) :
    shapeCast ⟨2, ![a, b]⟩ x h (ix2 i j) = x (ix4 (0 : Fin 1) (0 : Fin 1) i j) :=
  shapeCast_apply x h _ _ (by
    rw [Shape.rowMajor_val_four, Shape.rowMajor_val_two]
    show ((0 * 1 + 0) * a + i.val) * b + j.val = i.val * b + j.val
    simp only [Nat.zero_mul, Nat.zero_add])

/-- A matrix [a, b] cast to the block [1, 1, a, b] reads, at (u, v, i, j), the matrix at (i, j), whatever the two unit
    coordinates. -/
theorem shapeCast_ab_11ab_apply {a b : ℕ} (x : (⟨2, ![a, b]⟩ : Shape).Idx → α)
    (h : (⟨2, ![a, b]⟩ : Shape).ShapeCasts ⟨4, ![1, 1, a, b]⟩) (u v : Fin 1) (i : Fin a) (j : Fin b) :
    shapeCast ⟨4, ![1, 1, a, b]⟩ x h (ix4 u v i j) = x (ix2 i j) :=
  shapeCast_apply x h _ _ (by
    have hu : u.val = 0 := by omega
    have hv : v.val = 0 := by omega
    rw [Shape.rowMajor_val_four, Shape.rowMajor_val_two]
    show i.val * b + j.val = ((u.val * 1 + v.val) * a + i.val) * b + j.val
    rw [hu, hv]
    simp only [Nat.zero_mul, Nat.zero_add])

/-- A vector [a] cast to the column [a, 1] reads, at (i, u), the vector at i. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column [a, 1] broadcast along b lanes reads, at (i, j), the column at (i, 0). -/
theorem broadcastTo_a1_ab_apply {a b : ℕ} (v : (⟨2, ![a, 1]⟩ : Shape).Idx → α)
    (h : (⟨2, ![a, 1]⟩ : Shape).Broadcasts ⟨2, ![a, b]⟩) (i : Fin a) (j : Fin b) :
    broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ => rfl

/-- So a vector [a] kept as a column and broadcast along b lanes reads, at (i, j), the vector at i. -/
theorem column_apply {a b : ℕ} (x : (⟨1, ![a]⟩ : Shape).Idx → α) (h₁ : (⟨1, ![a]⟩ : Shape).ShapeCasts ⟨2, ![a, 1]⟩)
    (h₂ : (⟨2, ![a, 1]⟩ : Shape).Broadcasts ⟨2, ![a, b]⟩) (i : Fin a) (j : Fin b) :
    broadcastTo ⟨2, ![a, b]⟩ (shapeCast ⟨2, ![a, 1]⟩ x h₁) h₂ (ix2 i j) = x (ix1 i) :=
  (broadcastTo_a1_ab_apply _ h₂ i j).trans (shapeCast_a_a1_apply x h₁ i 0)

end Cert.LibKeepdims
-- ==== Proof.BodyValue.lean ====
/-
  The same block at the ideal instance, entry by entry. One trip adds to the carried column, at row r, the sum over the
  trip's 1024 columns of the second row's entry where the row's own entry of the third column is at least the fourth
  row's entry, else zero. By induction over the trips the carried value before trip k is the first k chunks of that
  masked sum, so after 16 trips it is all 16 chunks, and the block's entry is the chunked arrangement of the row's
  log-probability.
-/
import proofs.«170966_j68367289418254_2_alg».proof.Proof.Body
import proofs.«170966_j68367289418254_2_alg».proof.Proof.Spec
import proofs.«170966_j68367289418254_2_alg».proof.Proof.LibKeepdims
import Idealize.ShloMosaic.Lib.ValueLayout
import Idealize.ShloMosaic.Lib.ValueIdx
import Idealize.ShloMosaic.PureOps.Ideal.Laws

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.KernelIdeal Cert.KernelIdeal.Gen Idealize.ShloMosaic.ValueIdx Cert.RankLogProb
open scoped BigOperators

/-- The loop body's payload at row `r`: the carried value plus the masked sum of the loaded chunk of the second row,
    the mask comparing the row's own entry of the third window with the loaded chunk of the fourth. -/
theorem pay2_apply (v2 : Vec Ideal S1024x1 .f32) (acc : FVec Ideal S1024x1 .f32) (v17 v20 : Vec Ideal S1x1024 .f32) (r : Fin 1024) (u : Fin 1) :
    k0_pay2 (F := Ideal) v2 acc v17 v20 (ix2 r u)
      = acc (ix2 r u) + ∑ k : Fin 1024, Scalar.select (Ideal.cmp .oge (v2 (ix2 r (0 : Fin 1))) (v17 (ix2 (0 : Fin 1) k))) (v20 (ix2 (0 : Fin 1) k)) 0 := by
  unfold k0_pay2
  refine congrArg (acc (ix2 r u) + ·) ?_
  refine (Cert.LibKeepdims.shapeCast_a_a1_apply _ shapeCasts_S1024_S1024x1 r u).trans ?_
  refine (Ideal.multiReduction_add_single _ 0x00000000#32 reduces_S1024x1024_S1024 (.inl rfl) rfl (ix1 r)).trans ?_
  refine Finset.sum_congr rfl fun (k : Fin 1024) _ => ?_
  have e : reduces_S1024x1024_S1024.lift (ix1 r) k = ix2 r k :=
    funext fun a => Fin.ext (by match a with | ⟨0, _⟩ => rfl | ⟨1, _⟩ => rfl)
  rw [e]
  have eA : broadcastTo S1024x1024 (shapeCast S1024x1 v2 shapeCasts_S1024x1_S1024x1) broadcasts_S1024x1_S1024x1024 (ix2 r k) = v2 (ix2 r (0 : Fin 1)) := by
    rw [shapeCast_self]; exact Cert.LibKeepdims.broadcastTo_a1_ab_apply v2 _ r k
  have eB : broadcastTo S1024x1024 (shapeCast S1x1024 v17 shapeCasts_S1x1024_S1x1024) broadcasts_S1x1024_S1024x1024 (ix2 r k) = v17 (ix2 (0 : Fin 1) k) := by
    rw [shapeCast_self]; exact broadcastTo_1b_ab_apply v17 _ r k
  have eC : broadcastTo S1024x1024 (shapeCast S1x1024 (shapeCast S1x1024 v20 shapeCasts_S1x1024_S1x1024) shapeCasts_S1x1024_S1x1024) broadcasts_S1x1024_S1024x1024 (ix2 r k) = v20 (ix2 (0 : Fin 1) k) := by
    rw [shapeCast_self, shapeCast_self]; exact broadcastTo_1b_ab_apply v20 _ r k
  show Scalar.select (Ideal.cmp .oge (broadcastTo S1024x1024 (shapeCast S1024x1 v2 shapeCasts_S1024x1_S1024x1) broadcasts_S1024x1_S1024x1024 (ix2 r k))
      (broadcastTo S1024x1024 (shapeCast S1x1024 v17 shapeCasts_S1x1024_S1x1024) broadcasts_S1x1024_S1024x1024 (ix2 r k)))
    (broadcastTo S1024x1024 (shapeCast S1x1024 (shapeCast S1x1024 v20 shapeCasts_S1x1024_S1x1024) shapeCasts_S1x1024_S1x1024) broadcasts_S1x1024_S1024x1024 (ix2 r k))
    (Ideal.ofBits .f32 0x00000000#32) = _
  rw [eA, eB, eC, Ideal.ofBits_zero_f32]

/-- The last payload at an index: the sign, the logarithm, the small constant and the product, entry by entry. -/
theorem pay3_apply (v0 : Vec Ideal S1024x1 .f32) (v6 : FVec Ideal S1024x1 .f32) (j : S1024x1.Idx) :
    k0_pay3 (F := Ideal) v0 v6 j = 0 - Ideal.log (v0 j * v6 j + eps) := by
  unfold k0_pay3
  simp only [shapeCast_self]
  show Ideal.ofBits .f32 0x00000000#32 - Ideal.log (v0 j * v6 j + Ideal.ofBits .f32 0x2EDBE6FF#32) = _
  rw [Ideal.ofBits_zero_f32]
  rfl

/-- Where trip `k`'s two loads read: row 0, columns `1024 k … 1024 k + 1023`. -/
theorem trip_idx (k : ℕ) (hlt : k < k0_t1_loop.trips) (hk : k < 16) (k' : Fin 1024) :
    (Rect.unit (s := S1x16384) (k0_off1 ⟨k, hlt⟩) S1x1024.size (k0_off1_inb ⟨k, hlt⟩)).toLoadRect.idx (ix2 (0 : Fin 1) k')
      = ix2 (0 : Fin 1) (chunkEquiv (⟨k, hk⟩, k')) := by
  have ho := k0_off1_eq ⟨k, hlt⟩
  funext a
  apply Fin.ext
  rw [LoadRect.idx_apply]
  match a with
  | ⟨0, _⟩ => show k0_off1 ⟨k, hlt⟩ 0 + 1 * 0 = 0; rw [ho]; rfl
  | ⟨1, _⟩ => show k0_off1 ⟨k, hlt⟩ 1 + 1 * k'.val = 1024 * k + k'.val; rw [ho]; show 1024 * k + 1 * k'.val = _; omega

/-- The value the loop carries into trip `k`, at row `r`: the first `k` chunks of the row's masked sum. -/
theorem st_apply (c : Dev nD) (i : grid0.Coords) (arg1 : Memref sig .tc .vmem S1024x1 .f32) (harg1 : arg1.IsWhole) (arg2 : Memref sig .tc .vmem S1x16384 .f32) (harg2 : arg2.IsWhole) (arg3 : Memref sig .tc .vmem S1024x1 .f32) (harg3 : arg3.IsWhole) (arg4 : Memref sig .tc .vmem S1x16384 .f32) (harg4 : arg4.IsWhole) (arg5 : Memref sig .tc .vmem S1024x1 .f32) (harg5 : arg5.IsWhole)
    (x1 : Vec Ideal S1x16384 .f32) (x2 : Vec Ideal S1024x1 .f32) (x3 : Vec Ideal S1x16384 .f32) (r : Fin 1024) (u : Fin 1) :
    ∀ (k : ℕ) (hk : k ≤ 16),
      st_k0_t1 (F := Ideal) Variants.none c none i arg1 harg1 arg2 harg2 arg3 harg3 arg4 harg4 arg5 harg5 x2 (harg2.unread x1) (harg4.unread x3) k0_pay1 k (ix2 r u)
        = ∑ s : Fin k, chunk (x2 (ix2 r (0 : Fin 1))) (fun n => x3 (ix2 (0 : Fin 1) n)) (fun n => x1 (ix2 (0 : Fin 1) n))
            ⟨s.val, lt_of_lt_of_le s.isLt hk⟩
  | 0, _ => by
    rw [Finset.univ_eq_empty, Finset.sum_empty]
    show Ideal.ofBits .f32 0x00000000#32 = 0
    exact Ideal.ofBits_zero_f32
  | k + 1, hk => by
    have hlt : k < k0_t1_loop.trips := by rw [trips_eq]; omega
    rw [show st_k0_t1 (F := Ideal) Variants.none c none i arg1 harg1 arg2 harg2 arg3 harg3 arg4 harg4 arg5 harg5 x2 (harg2.unread x1) (harg4.unread x3) k0_pay1 (k + 1)
          = tripR_k0_t1 (F := Ideal) Variants.none c none i arg1 harg1 arg2 harg2 arg3 harg3 arg4 harg4 arg5 harg5 x2 (harg2.unread x1) (harg4.unread x3) ⟨k, hlt⟩
              (st_k0_t1 (F := Ideal) Variants.none c none i arg1 harg1 arg2 harg2 arg3 harg3 arg4 harg4 arg5 harg5 x2 (harg2.unread x1) (harg4.unread x3) k0_pay1 k)
        from st_k0_t1_succ Variants.none c none i arg1 harg1 arg2 harg2 arg3 harg3 arg4 harg4 arg5 harg5 x2 (harg2.unread x1) (harg4.unread x3) k0_pay1 ⟨k, hlt⟩]
    rw [trip_eq, pay2_apply, st_apply c i arg1 harg1 arg2 harg2 arg3 harg3 arg4 harg4 arg5 harg5 x1 x2 x3 r u k (by omega)]
    refine Eq.trans ?_ (Fin.sum_univ_castSucc (fun s : Fin (k + 1) =>
      chunk (x2 (ix2 r (0 : Fin 1))) (fun n => x3 (ix2 (0 : Fin 1) n)) (fun n => x1 (ix2 (0 : Fin 1) n))
        ⟨s.val, lt_of_lt_of_le s.isLt hk⟩)).symm
    refine congrArg₂ (fun a b : EReal => a + b) rfl ?_
    show _ = chunk (x2 (ix2 r (0 : Fin 1))) (fun n => x3 (ix2 (0 : Fin 1) n)) (fun n => x1 (ix2 (0 : Fin 1) n)) ⟨k, by omega⟩
    unfold chunk
    refine Finset.sum_congr rfl fun k' _ => ?_
    rw [harg4.readAt_unread, harg2.readAt_unread, trip_idx k hlt (by omega) k']

/-- WHAT THE BODY LEAVES at row `r` of its output block: the chunked arrangement of the row's log-probability, of the
    row's entries of the first and third blocks and of the two whole rows. -/
theorem out_apply (c : Dev nD) (i : grid0.Coords) (arg1 : Memref sig .tc .vmem S1024x1 .f32) (harg1 : arg1.IsWhole) (arg2 : Memref sig .tc .vmem S1x16384 .f32) (harg2 : arg2.IsWhole) (arg3 : Memref sig .tc .vmem S1024x1 .f32) (harg3 : arg3.IsWhole) (arg4 : Memref sig .tc .vmem S1x16384 .f32) (harg4 : arg4.IsWhole) (arg5 : Memref sig .tc .vmem S1024x1 .f32) (harg5 : arg5.IsWhole)
    (x0 : Vec Ideal S1024x1 .f32) (x1 : Vec Ideal S1x16384 .f32) (x2 : Vec Ideal S1024x1 .f32) (x3 : Vec Ideal S1x16384 .f32) (r : Fin 1024) (u : Fin 1) :
    out0_A_4 (F := Ideal) c i arg1 harg1 arg2 harg2 arg3 harg3 arg4 harg4 arg5 harg5 x0 x1 x2 x3 (ix2 r u)
      = rowOut (x0 (ix2 r u)) (x2 (ix2 r (0 : Fin 1))) (fun n => x1 (ix2 (0 : Fin 1) n)) (fun n => x3 (ix2 (0 : Fin 1) n)) := by
  rw [out_eq, pay3_apply, show k0_t1_loop.trips = 16 from trips_eq, st_apply c i arg1 harg1 arg2 harg2 arg3 harg3 arg4 harg4 arg5 harg5 x1 x2 x3 r u 16 le_rfl]
  rfl

end Cert.KernelIdeal.Body

end
-- ==== Proof.Rows.lean ====
/-
  From blocks to the whole output column. The two column windows move with the output's block (rows 1024·t … 1024·t + 1023
  at point t) and the two row windows always hold their whole row, so what point t writes back is block t of ONE function
  of the four staged arrays; the 16 blocks cover the 16384 rows (row R lies in block R / 1024), so the column after the
  run is that function.
-/
import proofs.«170966_j68367289418254_2_alg».proof.Proof.BodyValue
import Idealize.ShloMosaic.Lib.Pipeline.Value

set_option maxRecDepth 16384

noncomputable section

namespace Cert.KernelIdeal.Rows

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.KernelIdeal Cert.KernelIdeal.Gen Cert.KernelIdeal.Body Idealize.ShloMosaic.ValueIdx Cert.RankLogProb

variable (m : (ℓ : Loc nD τ sig) → Buf (Elt Ideal) ℓ) (ρ : Dev nD → PrngReg)

/-- The output column as ONE function of the four staged arrays: row `I` is the chunked arrangement of the row's own
    entries of the two columns and of the two whole rows. -/
def rowFn (V7 : S16384x1.Idx → Elt Ideal .f32) (V8 : S1x16384.Idx → Elt Ideal .f32) (V9 : S16384x1.Idx → Elt Ideal .f32)
    (V10 : S1x16384.Idx → Elt Ideal .f32) : S16384x1.Idx → Elt Ideal .f32 :=
  fun I => rowOut (V7 I) (V9 (ix2 (⟨(I 0).val, (I 0).isLt⟩ : Fin 16384) (0 : Fin 1)))
    (fun n => V8 (ix2 (0 : Fin 1) n)) (fun n => V10 (ix2 (0 : Fin 1) n))

/-- The printed index maps over the grid: the two column windows move with the output's block on axis 0, the two
    row windows stay at the one whole block, and the output's block index stays below 16. -/
theorem idx_facts : ∀ t : Fin cfg0.N,
    win0_0.index t (0 : Fin 2) = win0_4.index t (0 : Fin 2) ∧ win0_0.index t (1 : Fin 2) = 0
    ∧ win0_2.index t (0 : Fin 2) = win0_4.index t (0 : Fin 2) ∧ win0_2.index t (1 : Fin 2) = 0
    ∧ win0_1.index t (0 : Fin 2) = 0 ∧ win0_1.index t (1 : Fin 2) = 0
    ∧ win0_3.index t (0 : Fin 2) = 0 ∧ win0_3.index t (1 : Fin 2) = 0
    ∧ win0_4.index t (1 : Fin 2) = 0 ∧ win0_4.index t (0 : Fin 2) ≤ 15 :=
  (by decide +kernel : ∀ t : Fin grid0.N, _)

/-- Every block of the output column is some point's. -/
theorem idx_onto : ∀ q : Fin 16, ∃ t : Fin cfg0.N, win0_4.index t = ![q.val, 0] :=
  (by decide +kernel : ∀ q : Fin 16, ∃ t : Fin grid0.N, win0_4.index t = ![q.val, 0])

/-- The first column's block at a point is the column read where the output's block sits. -/
theorem blk0 (c : Dev nD) (t : Fin cfg0.N) (r : Fin 1024) (u : Fin 1) :
    iblk m c 0 t (ix2 r u) = V m c main_v7 (((cfg0.win 4).blk t).view.emb (ix2 r u)) := by
  obtain ⟨e0, e1, -, -, -, -, -, -, e8, -⟩ := idx_facts t
  show V m c main_v7 (((cfg0.win 0).blk t).view.emb (ix2 r u)) = V m c main_v7 (((cfg0.win 4).blk t).view.emb (ix2 r u))
  refine congrArg (V m c main_v7) ?_
  funext a; apply Fin.ext
  match a with
  | ⟨0, _⟩ => show win0_0.index t (0 : Fin 2) * 1024 + 1 * r.val = win0_4.index t (0 : Fin 2) * 1024 + 1 * r.val; omega
  | ⟨1, _⟩ => show win0_0.index t (1 : Fin 2) * 1 + 1 * u.val = win0_4.index t (1 : Fin 2) * 1 + 1 * u.val; omega

/-- The third window's block at a point, in its one column, is the column at the output block's row. -/
theorem blk2 (c : Dev nD) (t : Fin cfg0.N) (r : Fin 1024) (u : Fin 1) :
    iblk m c 2 t (ix2 r (0 : Fin 1))
      = V m c main_v9 (ix2 (⟨(((cfg0.win 4).blk t).view.emb (ix2 r u) 0).val, (((cfg0.win 4).blk t).view.emb (ix2 r u) 0).isLt⟩ : Fin 16384) (0 : Fin 1)) := by
  obtain ⟨-, -, e2, e3, -, -, -, -, e8, -⟩ := idx_facts t
  show V m c main_v9 (((cfg0.win 2).blk t).view.emb (ix2 r (0 : Fin 1))) = _
  refine congrArg (V m c main_v9) ?_
  funext a; apply Fin.ext
  match a with
  | ⟨0, _⟩ => show win0_2.index t (0 : Fin 2) * 1024 + 1 * r.val = win0_4.index t (0 : Fin 2) * 1024 + 1 * r.val; omega
  | ⟨1, _⟩ => show win0_2.index t (1 : Fin 2) * 1 + 1 * 0 = 0; omega

/-- The two row windows' one block is the whole row. -/
theorem blk1 (c : Dev nD) (t : Fin cfg0.N) (n : Fin 16384) :
    iblk m c 1 t (ix2 (0 : Fin 1) n) = V m c main_v8 (ix2 (0 : Fin 1) n) := by
  obtain ⟨-, -, -, -, e4, e5, -, -, -, -⟩ := idx_facts t
  show V m c main_v8 (((cfg0.win 1).blk t).view.emb (ix2 (0 : Fin 1) n)) = _
  refine congrArg (V m c main_v8) ?_
  funext a; apply Fin.ext
  match a with
  | ⟨0, _⟩ => show win0_1.index t (0 : Fin 2) * 1 + 1 * 0 = 0; omega
  | ⟨1, _⟩ => show win0_1.index t (1 : Fin 2) * 16384 + 1 * n.val = n.val; omega

theorem blk3 (c : Dev nD) (t : Fin cfg0.N) (n : Fin 16384) :
    iblk m c 3 t (ix2 (0 : Fin 1) n) = V m c main_v10 (ix2 (0 : Fin 1) n) := by
  obtain ⟨-, -, -, -, -, -, e6, e7, -, -⟩ := idx_facts t
  show V m c main_v10 (((cfg0.win 3).blk t).view.emb (ix2 (0 : Fin 1) n)) = _
  refine congrArg (V m c main_v10) ?_
  funext a; apply Fin.ext
  match a with
  | ⟨0, _⟩ => show win0_3.index t (0 : Fin 2) * 1 + 1 * 0 = 0; omega
  | ⟨1, _⟩ => show win0_3.index t (1 : Fin 2) * 16384 + 1 * n.val = n.val; omega

/-- WHAT POINT `t` WRITES BACK is block `t` of the one column function of the staged arrays. -/
theorem flushed_eq (c : Dev nD) (t : Fin cfg0.N) :
    (dats m 0 c).flushed 4 t
      = ((cfg0.win 4).blk t).view.read (Elt Ideal) (rowFn (V m c main_v7) (V m c main_v8) (V m c main_v9) (V m c main_v10)) := by
  show (cfg0.win 4).cut (grid0.coords t) ((dats m 0 c).after 4 t) = _
  rw [after0_4]
  unfold outsAt0
  funext j
  obtain ⟨r, u, rfl⟩ : ∃ (r : Fin 1024) (u : Fin 1), j = ix2 r u := ⟨j 0, j 1, eq_ix2 j⟩
  refine (out_apply c (grid0.coords t) (ms0_0 t) (hs0_0 t) (ms0_1 t) (hs0_1 t) (ms0_2 t) (hs0_2 t) (ms0_3 t) (hs0_3 t) (ms0_4 t) (hs0_4 t)
    (iblk m c 0 t) (iblk m c 1 t) (iblk m c 2 t) (iblk m c 3 t) r u).trans ?_
  rw [blk0 m c t r u, blk2 m c t r u, funext (blk1 m c t), funext (blk3 m c t)]
  rfl

/-- An index of the column is in point `t`'s block iff each coordinate is in the block's range on its axis. -/
theorem mem_blk (t : Fin cfg0.N) (I : S16384x1.Idx) :
    I ∈ ((cfg0.win 4).blk t).view.set ↔ ∀ a : Fin 2, win0_4.index t a * S1024x1.size a ≤ (I a).val ∧ (I a).val < win0_4.index t a * S1024x1.size a + S1024x1.size a := by
  show I ∈ ((View.whole main_v11).slice (win0_4.rect t)).set ↔ _
  rw [View.set_slice_whole, Rect.mem_set_unit]
  exact Iff.rfl

/-- Row `R` of the column is in the block of the point whose block index is `R / 1024`. -/
theorem cover (I : S16384x1.Idx) : ∃ t : Fin cfg0.N, (cfg0.win 4).flush t = true ∧ I ∈ ((cfg0.win 4).blk t).view.set := by
  have hi0 : (I 0).val < 16384 := (I 0).isLt
  have hi1 : (I 1).val < 1 := (I 1).isLt
  obtain ⟨t, ht⟩ := idx_onto ⟨(I 0).val / 1024, by omega⟩
  have q0 : win0_4.index t (0 : Fin 2) = (I 0).val / 1024 := congrFun ht 0
  have q1 : win0_4.index t (1 : Fin 2) = 0 := congrFun ht 1
  refine ⟨t, flush0_4 t, ?_⟩
  rw [mem_blk]
  intro a
  match a with
  | ⟨0, _⟩ => show win0_4.index t (0 : Fin 2) * 1024 ≤ (I 0).val ∧ (I 0).val < win0_4.index t (0 : Fin 2) * 1024 + 1024; omega
  | ⟨1, _⟩ => show win0_4.index t (1 : Fin 2) * 1 ≤ (I 1).val ∧ (I 1).val < win0_4.index t (1 : Fin 2) * 1 + 1; omega

/-- THE OUTPUT COLUMN after the run is that one function of the staged arrays. -/
theorem final (c : Dev nD) :
    (dats m 0 c).arrAt 4 cfg0.N = rowFn (V m c main_v7) (V m c main_v8) (V m c main_v9) (V m c main_v10) :=
  (dats m 0 c).arrAt_eq_of_cover 4 _ (fun t _ => flushed_eq m c t) cover

end Cert.KernelIdeal.Rows

end
-- ==== Proof.Staged.lean ====
/-
  The arrays the region finds and the results after it, from the two argument vectors: with M the largest score, the
  first column is exp (-(l - M)), the first row exp (l - M), the second column and row the perturbed scores l + n; the
  first result is the output column cast to a vector, the second the perturbed scores. Over real scores M is a real.
-/
import proofs.«170966_j68367289418254_2_alg».proof.Proof.Gen.KernelIdeal.Frame
import proofs.«170966_j68367289418254_2_alg».proof.Proof.LibKeepdims
import Idealize.ShloMosaic.Lib.ValueLayout
import Idealize.ShloMosaic.Lib.ValueIdx
import Idealize.ShloMosaic.Lib.StableHlo.Run
import Idealize.ShloMosaic.PureOps.Ideal.Laws
import Idealize.ShloMosaic.Lib.Pipeline.Value
import Mathlib.Data.Finset.Fold

set_option maxRecDepth 16384

noncomputable section

namespace Cert.KernelIdeal.Staged

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.KernelIdeal Cert.KernelIdeal.Gen Idealize.ShloMosaic.ValueIdx Idealize.ShloMosaic.StableHlo

variable (m : (ℓ : Loc nD τ sig) → Buf (Elt Ideal) ℓ)

/-- The two argument vectors on core `c`: the scores and the perturbations, as the program is launched. -/
abbrev scores (c : Dev nD) : S16384.Idx → EReal := m ((c : Thread nD τ).loc main_arg0)
abbrev noise (c : Dev nD) : S16384.Idx → EReal := m ((c : Thread nD τ).loc main_arg1)

/-- A column [a, 1] cast to the vector [a] reads, at i, the column at (i, 0). -/
theorem shapeCast_a1_a_apply {α : Type} {a : ℕ} (x : (⟨2, ![a, 1]⟩ : Shape).Idx → α) (h : (⟨2, ![a, 1]⟩ : Shape).ShapeCasts ⟨1, ![a]⟩)
    (i : Fin a) : shapeCast ⟨1, ![a]⟩ x h (ix1 i) = x (ix2 i (0 : Fin 1)) :=
  shapeCast_apply x h _ _ (by
    rw [Shape.rowMajor_val_two, Shape.rowMajor_val_one]
    show i.val * 1 + 0 = i.val
    omega)

/-- The largest score: the host's maximum-reduce of the score vector from −∞. -/
def top (x : FVec Ideal S16384 .f32) : EReal := (Host.reduce FloatOps.maximumf x (constant (F := Ideal) S_ .f32 0xFF800000#32) reducesTo_S16384_S_d0 h_S_) ix0

/-- A score shifted by the largest one. -/
theorem sub_top (x : FVec Ideal S16384 .f32) (i : S16384.Idx) : (subf x (broadcastInDim S16384 ![] bcast_S_S16384 (Host.reduce FloatOps.maximumf x (constant (F := Ideal) S_ .f32 0xFF800000#32) reducesTo_S16384_S_d0 h_S_))) i = x i - top x := by
  show x i - broadcastInDim S16384 ![] bcast_S_S16384 (Host.reduce FloatOps.maximumf x (constant (F := Ideal) S_ .f32 0xFF800000#32) reducesTo_S16384_S_d0 h_S_) i = _
  rw [broadcastInDim_apply _ bcast_S_S16384 _ i ix0 (fun a => a.elim0)]
  rfl

/-- Over real scores the largest score is a real: it is below +∞ because −∞ and every score are, and above −∞ because
    it is at least the first score. -/
theorem top_real (x : FVec Ideal S16384 .f32) (L : Fin 16384 → ℝ) (hx : ∀ k : Fin 16384, x (ix1 k) = (L k : EReal)) :
    ∃ M : ℝ, top x = (M : EReal) := by
  have hval : ∀ i : S16384.Idx, ∃ r : ℝ, x i = (r : EReal) := fun i => by
    obtain ⟨k, rfl⟩ : ∃ k : Fin 16384, i = ix1 k := ⟨i 0, eq_ix1 i⟩
    exact ⟨L k, hx k⟩
  have hlt : top x < ⊤ := by
    unfold top
    rw [Host.reduce_eq_fold FloatOps.maximumf x _ reducesTo_S16384_S_d0 h_S_ ix0]
    refine (Finset.fold_max_lt _).mpr ⟨?_, fun i _ => ?_⟩
    · show Ideal.ofBits .f32 0xFF800000#32 < ⊤
      simp [Ideal.ofBits, Ideal.ieee]
    · obtain ⟨r, hr⟩ := hval i
      rw [hr]; exact EReal.coe_lt_top _
  have hgt : ⊥ < top x := by
    unfold top
    rw [Host.reduce_eq_fold FloatOps.maximumf x _ reducesTo_S16384_S_d0 h_S_ ix0]
    refine (Finset.lt_fold_max _).mpr (Or.inr ⟨ix1 (0 : Fin 16384), Finset.mem_filter.mpr ⟨Finset.mem_univ _, funext fun a => a.elim0⟩, ?_⟩)
    obtain ⟨r, hr⟩ := hval (ix1 (0 : Fin 16384))
    rw [hr]; exact EReal.bot_lt_coe _
  exact ⟨(top x).toReal, (EReal.coe_toReal hlt.ne hgt.ne').symm⟩

/-! ## The four staged arrays, entry by entry, from the two argument vectors -/

theorem V7_apply (c : Dev nD) (R : Fin 16384) (u : Fin 1) :
    V m c main_v7 (ix2 R u) = Ideal.exp (-((scores m c) (ix1 R) - top (scores m c))) := by
  have e : (V m c main_v7 : S16384x1.Idx → Elt Ideal .f32)
      = shapeCast S16384x1 (Host.exp (Host.negf (subf (scores m c) (broadcastInDim S16384 ![] bcast_S_S16384 (Host.reduce FloatOps.maximumf (scores m c) (constant (F := Ideal) S_ .f32 0xFF800000#32) reducesTo_S16384_S_d0 h_S_))))) shapeCasts_S16384_S16384x1 := by
    show StableHlo.after hostOps0 (fun b => m (c, b)) (Proc.devRef .tc main_v7) = _
    after_results; rfl
  rw [e]
  refine (Cert.LibKeepdims.shapeCast_a_a1_apply _ shapeCasts_S16384_S16384x1 R u).trans ?_
  show Ideal.exp (-((subf (scores m c) (broadcastInDim S16384 ![] bcast_S_S16384 (Host.reduce FloatOps.maximumf (scores m c) (constant (F := Ideal) S_ .f32 0xFF800000#32) reducesTo_S16384_S_d0 h_S_))) (ix1 R))) = _
  rw [sub_top]

theorem V8_apply (c : Dev nD) (n : Fin 16384) :
    V m c main_v8 (ix2 (0 : Fin 1) n) = Ideal.exp ((scores m c) (ix1 n) - top (scores m c)) := by
  have e : (V m c main_v8 : S1x16384.Idx → Elt Ideal .f32)
      = shapeCast S1x16384 (Host.exp (subf (scores m c) (broadcastInDim S16384 ![] bcast_S_S16384 (Host.reduce FloatOps.maximumf (scores m c) (constant (F := Ideal) S_ .f32 0xFF800000#32) reducesTo_S16384_S_d0 h_S_)))) shapeCasts_S16384_S1x16384 := by
    show StableHlo.after hostOps0 (fun b => m (c, b)) (Proc.devRef .tc main_v8) = _
    after_results; rfl
  rw [e]
  refine (shapeCast_a_1a_apply _ shapeCasts_S16384_S1x16384 0 n).trans ?_
  show Ideal.exp ((subf (scores m c) (broadcastInDim S16384 ![] bcast_S_S16384 (Host.reduce FloatOps.maximumf (scores m c) (constant (F := Ideal) S_ .f32 0xFF800000#32) reducesTo_S16384_S_d0 h_S_))) (ix1 n)) = _
  rw [sub_top]

theorem V9_apply (c : Dev nD) (R : Fin 16384) (u : Fin 1) :
    V m c main_v9 (ix2 R u) = (scores m c) (ix1 R) + (noise m c) (ix1 R) := by
  have e : (V m c main_v9 : S16384x1.Idx → Elt Ideal .f32)
      = shapeCast S16384x1 (addf (F := Ideal) (s := S16384) (φ := .f32) (scores m c) (noise m c)) shapeCasts_S16384_S16384x1 := by
    show StableHlo.after hostOps0 (fun b => m (c, b)) (Proc.devRef .tc main_v9) = _
    after_results; rfl
  rw [e]
  exact Cert.LibKeepdims.shapeCast_a_a1_apply _ shapeCasts_S16384_S16384x1 R u

theorem V10_apply (c : Dev nD) (n : Fin 16384) :
    V m c main_v10 (ix2 (0 : Fin 1) n) = (scores m c) (ix1 n) + (noise m c) (ix1 n) := by
  have e : (V m c main_v10 : S1x16384.Idx → Elt Ideal .f32)
      = shapeCast S1x16384 (addf (F := Ideal) (s := S16384) (φ := .f32) (scores m c) (noise m c)) shapeCasts_S16384_S1x16384 := by
    show StableHlo.after hostOps0 (fun b => m (c, b)) (Proc.devRef .tc main_v10) = _
    after_results; rfl
  rw [e]
  exact shapeCast_a_1a_apply _ shapeCasts_S16384_S1x16384 0 n

/-! ## The two results after the region -/

/-- The first result: the output column, cast to a vector by the one host line after the region. -/
theorem result_eq (c : Dev nD) :
    Pipeline.afterTail₀ cfgs (dats m) 0 (V0 m) [hostOps1] c main_v12
      = shapeCast S16384 ((dats m 0 c).arrAt 4 cfg0.N) shapeCasts_S16384x1_S16384 := by
  unfold Pipeline.afterTail₀
  show StableHlo.after hostOps1 _ (Proc.devRef .tc main_v12) = _
  after_results
  exact congrArg (fun A : S16384x1.Idx → Elt Ideal .f32 => shapeCast S16384 A shapeCasts_S16384x1_S16384)
    (Pipeline.withArrays_arr spec0 launch0.win.arr_inj c (V0 m c) (fun w => (dats m 0 c).arrAt w cfg0.N) 4)

/-- The second result: the perturbed scores, which no line after the first one writes. -/
theorem sum_eq (c : Dev nD) :
    (Pipeline.afterTail₀ cfgs (dats m) 0 (V0 m) [hostOps1] c main_v0 : S16384.Idx → EReal)
      = fun i => scores m c i + noise m c i := by
  unfold Pipeline.afterTail₀
  rw [StableHlo.after_of_forall_not_mem (b := Proc.devRef .tc main_v0) _ _ (List.forall_iff_forall_mem.mp (by
      simp only [hostOps1, List.flatten_cons, List.flatten_nil, List.append_nil, List.cons_append,
        List.nil_append, List.Forall, StableHlo.reshape_writes, Finset.mem_singleton]
      repeat' apply And.intro
      all_goals exact StableHlo.devRef_ne_of_ne (by decide))),
    Pipeline.withArrays_of_ne _ c (V0 m c) _ main_v0 (by exact (by decide : ∀ w, Pipeline.arrRef spec0 w ≠ main_v0))]
  show StableHlo.after hostOps0 (fun b => m (c, b)) (Proc.devRef .tc main_v0) = _
  after_results; rfl

end Cert.KernelIdeal.Staged

end
-- ==== Proof.Result.lean ====
/-
  The first result of both programs as ONE function of the two argument vectors: entry `i` is item `i`'s
  log-probability, the vectors read by their one coordinate.
-/
import proofs.«170966_j68367289418254_2_alg».proof.Proof.Spec
import Idealize.ShloMosaic.Lib.ValueIdx

noncomputable section

namespace Cert.RankLogProb

open Idealize.ShloMosaic Idealize.ShloMosaic.ValueIdx

/-- The vector of all items' log-probabilities. -/
def vecResult (x0 x1 : (⟨1, ![16384]⟩ : Shape).Idx → EReal) : (⟨1, ![16384]⟩ : Shape).Idx → EReal :=
  fun i => logProb (fun k => x0 (ix1 k)) (fun k => x1 (ix1 k)) ⟨(i 0).val, (i 0).isLt⟩

theorem vecResult_apply (x0 x1 : (⟨1, ![16384]⟩ : Shape).Idx → EReal) (R : Fin 16384) :
    vecResult x0 x1 (ix1 R) = logProb (fun k => x0 (ix1 k)) (fun k => x1 (ix1 k)) R := rfl

end Cert.RankLogProb

end
-- ==== Proof.KernelRun.lean ====
/-
  The idealized kernel's run read as values: over real scores its first result is the vector of log-probabilities and
  its second the perturbed scores.
-/
import proofs.«170966_j68367289418254_2_alg».proof.Proof.Rows
import proofs.«170966_j68367289418254_2_alg».proof.Proof.Staged
import proofs.«170966_j68367289418254_2_alg».proof.Proof.Result

set_option maxRecDepth 16384

noncomputable section

namespace Cert.KernelIdeal.Whole

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.KernelIdeal Cert.KernelIdeal.Gen Cert.KernelIdeal.Rows Cert.KernelIdeal.Staged Idealize.ShloMosaic.ValueIdx Cert.RankLogProb

variable (m : (ℓ : Loc nD τ sig) → Buf (Elt Ideal) ℓ) (ρ : Dev nD → PrngReg)

/-- Over real scores the output column, cast to a vector, is the vector of log-probabilities: each staged array is
    read from the two argument vectors, the largest score is a real, and the chunked arrangement is the log-probability. -/
theorem column_eq (c : Dev nD) (L : Fin 16384 → ℝ) (hL : ∀ k : Fin 16384, scores m c (ix1 k) = (L k : EReal)) :
    shapeCast S16384 (rowFn (V m c main_v7) (V m c main_v8) (V m c main_v9) (V m c main_v10)) shapeCasts_S16384x1_S16384
      = vecResult (scores m c) (noise m c) := by
  funext i
  obtain ⟨R, rfl⟩ : ∃ R : Fin 16384, i = ix1 R := ⟨i 0, eq_ix1 i⟩
  obtain ⟨M, hM⟩ := top_real (scores m c) L hL
  refine (shapeCast_a1_a_apply _ shapeCasts_S16384x1_S16384 R).trans ?_
  show rowOut (V m c main_v7 (ix2 R (0 : Fin 1))) (V m c main_v9 (ix2 R (0 : Fin 1)))
    (fun n => V m c main_v8 (ix2 (0 : Fin 1) n)) (fun n => V m c main_v10 (ix2 (0 : Fin 1) n)) = _
  rw [V7_apply m c R 0, V9_apply m c R 0, funext (V8_apply m c), funext (V10_apply m c), hM]
  exact rowOut_eq_logProb (fun k => scores m c (ix1 k)) (fun k => noise m c (ix1 k)) L hL M R

/-- THE IDEALIZED KERNEL'S RUN, READ: over real scores the first result ends at the vector of log-probabilities, the
    second at the perturbed scores, the arguments unchanged. -/
theorem run (hreal : ∀ c : Dev nD, ∃ L : Fin 16384 → ℝ, ∀ k : Fin 16384, scores m c (ix1 k) = (L k : EReal)) :
    θ_run defs (onTc (τ := τ) (main (F := Ideal))) ⟨m, fun _ => 0, ρ⟩ fun r => ∀ c : Dev nD,
      r.2.mem ((c : Thread nD τ).loc main_v12) = vecResult (scores m c) (noise m c)
      ∧ r.2.mem ((c : Thread nD τ).loc main_v0) = (fun i => scores m c i + noise m c i)
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => by
    obtain ⟨L, hL⟩ := hreal c
    refine ⟨?_, ?_, ?_, ?_⟩
    · refine ((h c).2 main_v12 (Pipeline.mem_restRefs_of main_v12 (by decide) (by decide))).trans ?_
      rw [result_eq m c, Rows.final m c]
      exact column_eq m c L hL
    · exact ((h c).2 main_v0 (Pipeline.mem_restRefs_of main_v0 (by decide) (by decide))).trans (sum_eq m c)
    · exact ((h c).2 main_arg0 (Pipeline.mem_restRefs_of main_arg0 (by decide) (by decide))).trans (W_main_arg0 m (dats m) c)
    · exact ((h c).2 main_arg1 (Pipeline.mem_restRefs_of main_arg1 (by decide) (by decide))).trans (W_main_arg1 m (dats m) c))
    (run_main m ρ)

end Cert.KernelIdeal.Whole

end
-- ==== Proof.RefSide.lean ====
import proofs.«170966_j68367289418254_2_alg».proof.Proof.Gen.ReferenceIdeal.Run
import proofs.«170966_j68367289418254_2_alg».proof.Proof.Gen.ReferenceIdeal.Read
import proofs.«170966_j68367289418254_2_alg».proof.Proof.Spec
import Idealize.ShloMosaic.Lib.ValueIdx
import Idealize.ShloMosaic.PureOps.Ideal.Laws

noncomputable section

namespace Cert.ReferenceIdeal.RefValue

open Cert.ReferenceIdeal Cert.ReferenceIdeal.Gen Cert.ReferenceIdeal.Read Idealize.ShloMosaic Idealize.ShloMosaic.ValueIdx Cert.RankLogProb
open scoped BigOperators

/-- The reference's first result, entry `R`: the item's log-probability, the sum taken over all items at once. Its
    broadcasts read the row index for the item itself and the summation index for the competing item; the rest is the
    same operations entry by entry. -/
theorem ref_apply (x0 x1 : (⟨S16384, .f32⟩ : BufTy).Contents (Elt Ideal)) (R : Fin 16384) :
    val_main_v17 (F := Ideal) x0 x1 (ix1 R) = logProb (fun k => x0 (ix1 k)) (fun k => x1 (ix1 k)) R := by
  have e1 : ∀ k : Fin 16384, idx_main_v1 (idx_main_v3 (idx_main_v13 (ix1 R) k)) = ix1 R := fun k =>
    funext fun a => Fin.ext (by match a with | ⟨0, _⟩ => rfl)
  have e2 : ∀ k : Fin 16384, idx_main_v2 (idx_main_v4 (idx_main_v13 (ix1 R) k)) = ix1 k := fun k =>
    funext fun a => Fin.ext (by match a with | ⟨0, _⟩ => rfl)
  have e3 : ∀ k : Fin 16384, idx_main_v6 (idx_main_v8 (idx_main_v13 (ix1 R) k)) = ix1 k := fun k =>
    funext fun a => Fin.ext (by match a with | ⟨0, _⟩ => rfl)
  have e4 : ∀ k : Fin 16384, idx_main_v7 (idx_main_v9 (idx_main_v13 (ix1 R) k)) = ix1 R := fun k =>
    funext fun a => Fin.ext (by match a with | ⟨0, _⟩ => rfl)
  have hterm : ∀ k : Fin 16384, val_main_v12 (F := Ideal) x0 x1 (idx_main_v13 (ix1 R) k)
      = Scalar.select (Ideal.cmp .oge (x0 (ix1 R) + x1 (ix1 R)) (x0 (ix1 k) + x1 (ix1 k))) (Ideal.exp (x0 (ix1 k) - x0 (ix1 R))) 0 := by
    intro k
    rw [val_main_v12_apply, val_main_v5_apply, val_main_v3_apply, val_main_v1_apply, val_main_v0_apply,
      val_main_v4_apply, val_main_v2_apply, val_main_v0_apply, val_main_v11_apply, val_main_v10_apply,
      val_main_v8_apply, val_main_v6_apply, val_main_v9_apply, val_main_v7_apply, val_main_call0_v0_apply,
      val_main_cst_apply, e1, e2, e3, e4]
    show Scalar.select (Ideal.cmp .oge (x0 (ix1 R) + x1 (ix1 R)) (x0 (ix1 k) + x1 (ix1 k))) (Ideal.exp (x0 (ix1 k) - x0 (ix1 R)))
      (Ideal.ofBits .f32 0x00000000#32) = _
    rw [Ideal.ofBits_zero_f32]
  rw [val_main_v17_apply, val_main_v16_apply, val_main_v15_apply, val_main_v13_apply, val_main_v14_apply,
    val_main_cst_1_apply, val_main_cst_0_apply]
  simp only [hterm, Ideal.ofBits_def, Ideal.ofBits_zero_f32, Ideal.hostNegf_def, Ideal.negf_def, Ideal.hostUnary_log_def,
    Ideal.addf_def]
  unfold logProb eps
  rfl

end Cert.ReferenceIdeal.RefValue

end
-- ==== Proof.Finite.lean ====
/-
  The precondition read back: each input's absolute value is compared, entry by entry, with the +∞ word, and the
  conjunction of all comparisons is true; so every score is a real number.
-/
import proofs.«170966_j68367289418254_2_alg».proof.Pre_finite_inputs
import Idealize.ShloMosaic.Lib.ReduceAll
import Idealize.ShloMosaic.Lib.ValueIdx
import Idealize.ShloMosaic.Lib.Pipeline.Value
import Idealize.ShloMosaic.PureOps.Ideal.Laws

noncomputable section

namespace Cert.Finite

open Idealize.ShloMosaic Idealize.ShloMosaic.ValueIdx Cert.Pre_finite_inputs

instance : Subsingleton S_.Idx := ⟨fun a b => funext fun d => d.elim0⟩

/-- An extended real whose absolute value is strictly below the +∞ word is a real number. -/
theorem real_of_abs_lt (x : EReal) (h : Ideal.cmp .olt (max x (-x)) (Ideal.ofBits .f32 0x7F800000#32) = 1#1) :
    ∃ r : ℝ, x = (r : EReal) := by
  have htop : Ideal.ofBits .f32 0x7F800000#32 = ⊤ := by simp [Ideal.ofBits, Ideal.ieee]
  rw [htop] at h
  induction x using EReal.rec with
  | bot => simp [Ideal.cmp] at h
  | top => simp [Ideal.cmp] at h
  | coe r => exact ⟨r, rfl⟩

/-- The precondition read back at the first argument: every score is a real number. -/
theorem scores_real [Facts] (x0 x1 : FVec Ideal S16384 .f32) (h : fn (F := Ideal) x0 x1 = fun _ => 1#1) (i : S16384.Idx) :
    ∃ r : ℝ, x0 i = (r : EReal) := by
  have h0 := congrFun h ix0
  dsimp only [fn] at h0
  obtain ⟨ha, -⟩ := IntOp.andi_eq_one.1 (show IntOp.andi _ _ = 1#1 from h0)
  have h1 := Host.reduce_andi_all _ _ Facts.reducesTo_S16384_S_d0 Facts.h_S_ ix0 ha i
  have hb : broadcastInDim S16384 ![] Facts.bcast_S_S16384 (constant (F := Ideal) S_ .f32 0x7F800000#32) i
      = Ideal.ofBits .f32 0x7F800000#32 :=
    (broadcastInDim_apply _ Facts.bcast_S_S16384 _ i ix0 (fun a => a.elim0)).trans rfl
  have h2 : Ideal.cmp .olt (max (x0 i) (-(x0 i)))
      (broadcastInDim S16384 ![] Facts.bcast_S_S16384 (constant (F := Ideal) S_ .f32 0x7F800000#32) i) = 1#1 := h1
  rw [hb] at h2
  exact real_of_abs_lt (x0 i) h2

end Cert.Finite

end
-- ==== Proof.lean ====
/-
  The certificate's claims.

  The kernel computes, for 16384 scores `l` and perturbations `n`, each item's Plackett–Luce log-probability under
  the ranking by `l + n`: `-log (∑ k, [l i + n i ≥ l k + n k] · exp (l k - l i) + ε)`, and returns the perturbed scores
  beside it. The reference takes the masked sum over all items at once. The kernel first shifts the scores by their
  maximum `M`, exponentiates once per item on the host (`exp (l k - M)` as a row, `exp (-(l i - M))` as a column), and in
  each of 16 grid points takes a block of 1024 rows; a counted loop adds the row's masked sum 1024 columns at a time,
  and the block stores `0 - log (exp (-(l i - M)) · sum + ε)`; a last host line casts the column to a vector.
  At the ideal instance the two are the same function when the scores are real numbers (the precondition): the maximum of
  real scores is real, `exp (-(l i - M)) · exp (l k - M) = exp (l k - l i)`, a real factor distributes over a finite sum of
  reals, and 16 chunks of 1024 consecutive terms are the 16384 terms.
  The three frames are the generated ones (the reference's its generated run with the results dropped); the ideal pass
  rewrote nothing, so `preserves` is `True`.
-/
import proofs.«170966_j68367289418254_2_alg».proof.Defs
import proofs.«170966_j68367289418254_2_alg».proof.Proof.Gen.Kernel
import proofs.«170966_j68367289418254_2_alg».proof.Proof.Gen.Kernel.Frame
import proofs.«170966_j68367289418254_2_alg».proof.Proof.Gen.KernelIdeal
import proofs.«170966_j68367289418254_2_alg».proof.Proof.Gen.KernelIdeal.Frame
import proofs.«170966_j68367289418254_2_alg».proof.Proof.Gen.ReferenceIdeal
import proofs.«170966_j68367289418254_2_alg».proof.Proof.Gen.ReferenceIdeal.Run
import proofs.«170966_j68367289418254_2_alg».proof.Proof.Gen.ReferenceIdeal.Read
import proofs.«170966_j68367289418254_2_alg».proof.Proof.Gen.Pre_finite_inputs
import proofs.«170966_j68367289418254_2_alg».proof.Proof.KernelRun
import proofs.«170966_j68367289418254_2_alg».proof.Proof.RefSide
import proofs.«170966_j68367289418254_2_alg».proof.Proof.Finite
import Idealize.ShloMosaic.Adequacy
import Idealize.ShloMosaic.Init

noncomputable section

namespace Cert.Proof

open Idealize.ShloMosaic Idealize.ShloMosaic.TcCoe Idealize.SL.Sem Idealize.ShloMosaic.ValueIdx Cert.RankLogProb

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2.2) (Cert.ReferenceIdeal.Value.run (F := Ideal) m ρ)

/-- From memories that agree on the two argument vectors, with real scores, both idealized programs end with the
    vector of log-probabilities and the perturbed scores. -/
theorem algebraic : Cert.algebraic_KernelIdeal_ReferenceIdeal := by
  intro m ρ m' ρ' hpre hagree
  have hreal : ∀ c : Dev Cert.KernelIdeal.nD, ∃ L : Fin 16384 → ℝ, ∀ k : Fin 16384,
      Cert.KernelIdeal.Staged.scores m c (ix1 k) = (L k : EReal) := fun c => by
    have hr := Cert.Finite.scores_real _ _ (hpre c)
    choose L hL using hr
    exact ⟨fun k => L (ix1 k), fun k => hL (ix1 k)⟩
  refine ⟨fun c => vecResult (Cert.KernelIdeal.Staged.scores m c) (Cert.KernelIdeal.Staged.noise m c),
    fun c => (fun i => Cert.KernelIdeal.Staged.scores m c i + Cert.KernelIdeal.Staged.noise m c i),
    Cert.KernelIdeal.Whole.run m ρ hreal, ?_⟩
  refine (θ_run Cert.ReferenceIdeal.defs _ _).mono (fun _ h c => ⟨?_, ?_, (h c).2.2.1, (h c).2.2.2⟩)
    (Cert.ReferenceIdeal.Value.run (F := Ideal) m' ρ')
  · refine (h c).1.trans ((Cert.ReferenceIdeal.Read.val_main_v17_eq _ _).trans ?_)
    rw [(hagree c).1, (hagree c).2]
    funext i
    obtain ⟨R, rfl⟩ : ∃ R : Fin 16384, i = ix1 R := ⟨i 0, eq_ix1 i⟩
    exact Cert.ReferenceIdeal.RefValue.ref_apply _ _ R
  · refine (h c).2.1.trans ?_
    rw [(hagree c).1, (hagree c).2]
    rfl

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
